-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S32000000 : Shape := ⟨1, ![32000000]⟩
abbrev S3x1x1 : Shape := ⟨3, ![3, 1, 1]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S3x1x1 : S_.BroadcastsInDim S3x1x1 (![] : Fin 0 → Fin S3x1x1.rank)
  reducesTo_S3x1x1_S_d0_1_2 : S3x1x1.ReducesTo [0, 1, 2] S_

variable [Facts]

def fn {F : FTy → Type} [FloatOps F] (main_arg0 : FVec F S1000000x1 .f32) (main_arg1 : IVec S32000000 32) (main_arg2 : IVec S32000000 32) (main_arg3 : FVec F S3x1x1 .f32) (main_arg4 : FVec F S3x1x1 .f32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S3x1x1 .f32 := Host.absf main_arg3
  let main_cst_0 : FVec F S_ .f32 := constant S_ .f32 0x7F800000#32
  let main_v5 : FVec F S3x1x1 .f32 := broadcastInDim S3x1x1 ![] bcast_S_S3x1x1 main_cst_0
  let main_v6 : IVec S3x1x1 1 := cmpf .olt main_v4 main_v5
  let main_c_1 : IVec S_ 1 := constantI S_ 1 1#1
  let main_v7 : IVec S_ 1 := (fun x v => Host.reduce IntOp.andi x v reducesTo_S3x1x1_S_d0_1_2 h_S_) main_v6 main_c_1
  let main_v8 : IVec S_ 1 := andi main_v3 main_v7
  let main_v9 : FVec F S3x1x1 .f32 := Host.absf main_arg4
  let main_cst_2 : FVec F S_ .f32 := constant S_ .f32 0x7F800000#32
  let main_v10 : FVec F S3x1x1 .f32 := broadcastInDim S3x1x1 ![] bcast_S_S3x1x1 main_cst_2
  let main_v11 : IVec S3x1x1 1 := cmpf .olt main_v9 main_v10
  let main_c_3 : IVec S_ 1 := constantI S_ 1 1#1
  let main_v12 : IVec S_ 1 := (fun x v => Host.reduce IntOp.andi x v reducesTo_S3x1x1_S_d0_1_2 h_S_) main_v11 main_c_3
  let main_v13 : IVec S_ 1 := andi main_v8 main_v12
  main_v13
-- ==== Kernel.lean ====
abbrev S1000000x1 : Shape := ⟨2, ![1000000, 1]⟩
abbrev S32000000 : Shape := ⟨1, ![32000000]⟩
abbrev S3x1x1 : Shape := ⟨3, ![3, 1, 1]⟩
abbrev S_ : Shape := ⟨0, ![]⟩
abbrev S32000000x1 : Shape := ⟨2, ![32000000, 1]⟩
abbrev S1x1x1 : Shape := ⟨3, ![1, 1, 1]⟩
abbrev S1x1 : Shape := ⟨2, ![1, 1]⟩
abbrev S8000x1 : Shape := ⟨2, ![8000, 1]⟩

abbrev nBuf : Space → Nat
  | .hbm => 59
  | .vmem => 24
  | .smem => 0
  | _ => 0

abbrev bufTy : (tb : Table) → Fin (tcTables nBuf tb) → BufTy
  | .hbm, ⟨0, _⟩ => ⟨S1000000x1, .f32⟩
  | .hbm, ⟨1, _⟩ => ⟨S32000000, .i32⟩
  | .hbm, ⟨2, _⟩ => ⟨S32000000, .i32⟩
  | .hbm, ⟨3, _⟩ => ⟨S3x1x1, .f32⟩
  | .hbm, ⟨4, _⟩ => ⟨S3x1x1, .f32⟩
  | .hbm, ⟨5, _⟩ => ⟨S_, .i32⟩
  | .hbm, ⟨6, _⟩ => ⟨S32000000, .i32⟩
  | .hbm, ⟨7, _⟩ => ⟨S32000000, .i1⟩
  | .hbm, ⟨8, _⟩ => ⟨S_, .i32⟩
  | .hbm, ⟨9, _⟩ => ⟨S32000000, .i32⟩
  | .hbm, ⟨10, _⟩ => ⟨S32000000, .i32⟩
  | .hbm, ⟨11, _⟩ => ⟨S32000000, .i32⟩
  | .hbm, ⟨12, _⟩ => ⟨S32000000x1, .i32⟩
  | .hbm, ⟨13, _⟩ => ⟨S32000000x1, .f32⟩
  | .hbm, ⟨14, _⟩ => ⟨S_, .f32⟩
  | .hbm, ⟨15, _⟩ => ⟨S1000000x1, .f32⟩
  | .hbm, ⟨16, _⟩ => ⟨S32000000x1, .i32⟩
  | .hbm, ⟨17, _⟩ => ⟨S1000000x1, .f32⟩
  | .hbm, ⟨18, _⟩ => ⟨S1x1x1, .f32⟩
  | .hbm, ⟨19, _⟩ => ⟨S1x1, .f32⟩
  | .hbm, ⟨20, _⟩ => ⟨S1x1x1, .f32⟩
  | .hbm, ⟨21, _⟩ => ⟨S1x1, .f32⟩
  | .hbm, ⟨22, _⟩ => ⟨S1000000x1, .f32⟩
  | .hbm, ⟨23, _⟩ => ⟨S_, .i32⟩
  | .hbm, ⟨24, _⟩ => ⟨S32000000, .i32⟩
  | .hbm, ⟨25, _⟩ => ⟨S32000000, .i1⟩
  | .hbm, ⟨26, _⟩ => ⟨S_, .i32⟩
  | .hbm, ⟨27, _⟩ => ⟨S32000000, .i32⟩
  | .hbm, ⟨28, _⟩ => ⟨S32000000, .i32⟩
  | .hbm, ⟨29, _⟩ => ⟨S32000000, .i32⟩
  | .hbm, ⟨30, _⟩ => ⟨S32000000x1, .i32⟩
  | .hbm, ⟨31, _⟩ => ⟨S32000000x1, .f32⟩
  | .hbm, ⟨32, _⟩ => ⟨S_, .f32⟩
  | .hbm, ⟨33, _⟩ => ⟨S1000000x1, .f32⟩
  | .hbm, ⟨34, _⟩ => ⟨S32000000x1, .i32⟩
  | .hbm, ⟨35, _⟩ => ⟨S1000000x1, .f32⟩
  | .hbm, ⟨36, _⟩ => ⟨S1x1x1, .f32⟩
  | .hbm, ⟨37, _⟩ => ⟨S1x1, .f32⟩
  | .hbm, ⟨38, _⟩ => ⟨S1x1x1, .f32⟩
  | .hbm, ⟨39, _⟩ => ⟨S1x1, .f32⟩
  | .hbm, ⟨40, _⟩ => ⟨S1000000x1, .f32⟩
  | .hbm, ⟨41, _⟩ => ⟨S_, .i32⟩
  | .hbm, ⟨42, _⟩ => ⟨S32000000, .i32⟩
  | .hbm, ⟨43, _⟩ => ⟨S32000000, .i1⟩
  | .hbm, ⟨44, _⟩ => ⟨S_, .i32⟩
  | .hbm, ⟨45, _⟩ => ⟨S32000000, .i32⟩
  | .hbm, ⟨46, _⟩ => ⟨S32000000, .i32⟩
  | .hbm, ⟨47, _⟩ => ⟨S32000000, .i32⟩
  | .hbm, ⟨48, _⟩ => ⟨S32000000x1, .i32⟩
  | .hbm, ⟨49, _⟩ => ⟨S32000000x1, .f32⟩
  | .hbm, ⟨50, _⟩ => ⟨S_, .f32⟩
  | .hbm, ⟨51, _⟩ => ⟨S1000000x1, .f32⟩
  | .hbm, ⟨52, _⟩ => ⟨S32000000x1, .i32⟩
  | .hbm, ⟨53, _⟩ => ⟨S1000000x1, .f32⟩
  | .hbm, ⟨54, _⟩ => ⟨S1x1x1, .f32⟩
  | .hbm, ⟨55, _⟩ => ⟨S1x1, .f32⟩
  | .hbm, ⟨56, _⟩ => ⟨S1x1x1, .f32⟩
  | .hbm, ⟨57, _⟩ => ⟨S1x1, .f32⟩
  | .hbm, ⟨58, _⟩ => ⟨S1000000x1, .f32⟩
  | .local _ .vmem, ⟨0, _⟩ => ⟨S8000x1, .f32⟩
  | .local _ .vmem, ⟨1, _⟩ => ⟨S8000x1, .f32⟩
  | .local _ .vmem, ⟨2, _⟩ => ⟨S8000x1, .f32⟩
  | .local _ .vmem, ⟨3, _⟩ => ⟨S8000x1, .f32⟩
  | .local _ .vmem, ⟨4, _⟩ => ⟨S1x1, .f32⟩
  | .local _ .vmem, ⟨5, _⟩ => ⟨S1x1, .f32⟩
  | .local _ .vmem, ⟨6, _⟩ => ⟨S8000x1, .f32⟩
  | .local _ .vmem, ⟨7, _⟩ => ⟨S8000x1, .f32⟩
  | .local _ .vmem, ⟨8, _⟩ => ⟨S8000x1, .f32⟩
  | .local _ .vmem, ⟨9, _⟩ => ⟨S8000x1, .f32⟩
  | .local _ .vmem, ⟨10, _⟩ => ⟨S8000x1, .f32⟩
  | .local _ .vmem, ⟨11, _⟩ => ⟨S8000x1, .f32⟩
  | .local _ .vmem, ⟨12, _⟩ => ⟨S1x1, .f32⟩
  | .local _ .vmem, ⟨13, _⟩ => ⟨S1x1, .f32⟩
  | .local _ .vmem, ⟨14, _⟩ => ⟨S8000x1, .f32⟩
  | .local _ .vmem, ⟨15, _⟩ => ⟨S8000x1, .f32⟩
  | .local _ .vmem, ⟨16, _⟩ => ⟨S8000x1, .f32⟩
  | .local _ .vmem, ⟨17, _⟩ => ⟨S8000x1, .f32⟩
  | .local _ .vmem, ⟨18, _⟩ => ⟨S8000x1, .f32⟩
  | .local _ .vmem, ⟨19, _⟩ => ⟨S8000x1, .f32⟩
  | .local _ .vmem, ⟨20, _⟩ => ⟨S1x1, .f32⟩
  | .local _ .vmem, ⟨21, _⟩ => ⟨S1x1, .f32⟩
  | .local _ .vmem, ⟨22, _⟩ => ⟨S8000x1, .f32⟩
  | .local _ .vmem, ⟨23, _⟩ => ⟨S8000x1, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S32000000 : S_.BroadcastsInDim S32000000 (![] : Fin 0 → Fin S32000000.rank)
  bcast_S32000000_S32000000x1_0 : S32000000.BroadcastsInDim S32000000x1 (![0] : Fin 1 → Fin S32000000x1.rank)
  bcast_S_S1000000x1 : S_.BroadcastsInDim S1000000x1 (![] : Fin 0 → Fin S1000000x1.rank)
  slices_S3x1x1_S1x1x1_0_0_0 : S3x1x1.Slices ![0, 0, 0] S1x1x1
  shapeCasts_S1x1x1_S1x1 : S1x1x1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8000x1_S8000x1_0_0 : ∀ a, (![0, 0] : Fin 2 → Nat) a + S8000x1.size a ≤ S8000x1.size a
  h_S8000x1 : 0 < S8000x1.numel
  broadcasts_S1x1_S8000x1 : S1x1.Broadcasts S8000x1
  shapeCasts_S8000x1_S8000x1 : S8000x1.ShapeCasts S8000x1
  slices_S3x1x1_S1x1x1_1_0_0 : S3x1x1.Slices ![1, 0, 0] S1x1x1
  slices_S3x1x1_S1x1x1_2_0_0 : S3x1x1.Slices ![2, 0, 0] S1x1x1
  gather_S1000000x1_S32000000x1_S32000000x1_1_0_n_n_0_1_11_wf : GatherDims.WF S1000000x1 S32000000x1 S32000000x1 [1] [0] [] [0] [] 1 ![1, 1]
  scatter_S1000000x1_S32000000x1_S32000000x1_1_0_0_1_wf : ScatterDims.WF S1000000x1 S32000000x1 S32000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S1000000x1.size a
  hwx0_0 : ∀ i : grid0.Coords, EltTy.bits .f32 = 32 ∨ (Rect.block (s := S1000000x1) S8000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S1000000x1.size a
  hwx0_1 : ∀ i : grid0.Coords, EltTy.bits .f32 = 32 ∨ (Rect.block (s := S1000000x1) S8000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x1.size a ≤ S1000000x1.size a
  hwx0_4 : ∀ i : grid0.Coords, EltTy.bits .f32 = 32 ∨ (Rect.block (s := S1000000x1) S8000x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x1.size a ≤ S1000000x1.size a
  hwx1_0 : ∀ i : grid1.Coords, EltTy.bits .f32 = 32 ∨ (Rect.block (s := S1000000x1) S8000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1000000x1.size a
  hwx1_1 : ∀ i : grid1.Coords, EltTy.bits .f32 = 32 ∨ (Rect.block (s := S1000000x1) S8000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x1.size a ≤ S1000000x1.size a
  hwx1_4 : ∀ i : grid1.Coords, EltTy.bits .f32 = 32 ∨ (Rect.block (s := S1000000x1) S8000x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x1.size a ≤ S1000000x1.size a
  hwx2_0 : ∀ i : grid2.Coords, EltTy.bits .f32 = 32 ∨ (Rect.block (s := S1000000x1) S8000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S1000000x1.size a
  hwx2_1 : ∀ i : grid2.Coords, EltTy.bits .f32 = 32 ∨ (Rect.block (s := S1000000x1) S8000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x1.size a ≤ S1000000x1.size a
  hwx2_4 : ∀ i : grid2.Coords, EltTy.bits .f32 = 32 ∨ (Rect.block (s := S1000000x1) S8000x1.size (cc2_transform_4 i) (hinb2_4 i)).WholeWords (EltTy.packing .f32)

variable [Facts₀]

def gather_S1000000x1_S32000000x1_S32000000x1_1_0_n_n_0_1_11 : GatherDims S1000000x1 S32000000x1 S32000000x1 where
  offsetDims := [1]
  collapsedSliceDims := [0]
  operandBatchingDims := []
  startIndicesBatchingDims := []
  startIndexMap := [0]
  indexVectorDim := 1
  sliceSizes := ![1, 1]
  wf := gather_S1000000x1_S32000000x1_S32000000x1_1_0_n_n_0_1_11_wf
def scatter_S1000000x1_S32000000x1_S32000000x1_1_0_0_1 : ScatterDims S1000000x1 S32000000x1 S32000000x1 where
  updateWindowDims := [1]
  insertedWindowDims := [0]
  scatterDimsToOperandDims := [0]
  indexVectorDim := 1
  wf := scatter_S1000000x1_S32000000x1_S32000000x1_1_0_0_1_wf

abbrev win0_0 : Pipeline.Window sig grid0 :=
  Pipeline.Window.ofSpec (Memref.whole main_arg0) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S8000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v14) S8000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S8000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v29) S8000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S8000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1000000x1 : Shape := ⟨2, ![1000000, 1]⟩
abbrev S32000000 : Shape := ⟨1, ![32000000]⟩
abbrev S3x1x1 : Shape := ⟨3, ![3, 1, 1]⟩
abbrev S_ : Shape := ⟨0, ![]⟩
abbrev S32000000x1 : Shape := ⟨2, ![32000000, 1]⟩
abbrev S1x1x1 : Shape := ⟨3, ![1, 1, 1]⟩
abbrev S1x1 : Shape := ⟨2, ![1, 1]⟩

abbrev nBuf : Space → Nat
  | .hbm => 65
  | .vmem => 0
  | .smem => 0
  | _ => 0

abbrev bufTy : (tb : Table) → Fin (tcTables nBuf tb) → BufTy
  | .hbm, ⟨0, _⟩ => ⟨S1000000x1, .f32⟩
  | .hbm, ⟨1, _⟩ => ⟨S32000000, .i32⟩
  | .hbm, ⟨2, _⟩ => ⟨S32000000, .i32⟩
  | .hbm, ⟨3, _⟩ => ⟨S3x1x1, .f32⟩
  | .hbm, ⟨4, _⟩ => ⟨S3x1x1, .f32⟩
  | .hbm, ⟨5, _⟩ => ⟨S_, .i32⟩
  | .hbm, ⟨6, _⟩ => ⟨S32000000, .i32⟩
  | .hbm, ⟨7, _⟩ => ⟨S32000000, .i1⟩
  | .hbm, ⟨8, _⟩ => ⟨S_, .i32⟩
  | .hbm, ⟨9, _⟩ => ⟨S32000000, .i32⟩
  | .hbm, ⟨10, _⟩ => ⟨S32000000, .i32⟩
  | .hbm, ⟨11, _⟩ => ⟨S32000000, .i32⟩
  | .hbm, ⟨12, _⟩ => ⟨S32000000x1, .i32⟩
  | .hbm, ⟨13, _⟩ => ⟨S32000000x1, .f32⟩
  | .hbm, ⟨14, _⟩ => ⟨S_, .f32⟩
  | .hbm, ⟨15, _⟩ => ⟨S1000000x1, .f32⟩
  | .hbm, ⟨16, _⟩ => ⟨S32000000x1, .i32⟩
  | .hbm, ⟨17, _⟩ => ⟨S1000000x1, .f32⟩
  | .hbm, ⟨18, _⟩ => ⟨S1x1x1, .f32⟩
  | .hbm, ⟨19, _⟩ => ⟨S1x1, .f32⟩
  | .hbm, ⟨20, _⟩ => ⟨S1000000x1, .f32⟩
  | .hbm, ⟨21, _⟩ => ⟨S1x1x1, .f32⟩
  | .hbm, ⟨22, _⟩ => ⟨S1x1, .f32⟩
  | .hbm, ⟨23, _⟩ => ⟨S1000000x1, .f32⟩
  | .hbm, ⟨24, _⟩ => ⟨S1000000x1, .f32⟩
  | .hbm, ⟨25, _⟩ => ⟨S_, .i32⟩
  | .hbm, ⟨26, _⟩ => ⟨S32000000, .i32⟩
  | .hbm, ⟨27, _⟩ => ⟨S32000000, .i1⟩
  | .hbm, ⟨28, _⟩ => ⟨S_, .i32⟩
  | .hbm, ⟨29, _⟩ => ⟨S32000000, .i32⟩
  | .hbm, ⟨30, _⟩ => ⟨S32000000, .i32⟩
  | .hbm, ⟨31, _⟩ => ⟨S32000000, .i32⟩
  | .hbm, ⟨32, _⟩ => ⟨S32000000x1, .i32⟩
  | .hbm, ⟨33, _⟩ => ⟨S32000000x1, .f32⟩
  | .hbm, ⟨34, _⟩ => ⟨S_, .f32⟩
  | .hbm, ⟨35, _⟩ => ⟨S1000000x1, .f32⟩
  | .hbm, ⟨36, _⟩ => ⟨S32000000x1, .i32⟩
  | .hbm, ⟨37, _⟩ => ⟨S1000000x1, .f32⟩
  | .hbm, ⟨38, _⟩ => ⟨S1x1x1, .f32⟩
  | .hbm, ⟨39, _⟩ => ⟨S1x1, .f32⟩
  | .hbm, ⟨40, _⟩ => ⟨S1000000x1, .f32⟩
  | .hbm, ⟨41, _⟩ => ⟨S1x1x1, .f32⟩
  | .hbm, ⟨42, _⟩ => ⟨S1x1, .f32⟩
  | .hbm, ⟨43, _⟩ => ⟨S1000000x1, .f32⟩
  | .hbm, ⟨44, _⟩ => ⟨S1000000x1, .f32⟩
  | .hbm, ⟨45, _⟩ => ⟨S_, .i32⟩
  | .hbm, ⟨46, _⟩ => ⟨S32000000, .i32⟩
  | .hbm, ⟨47, _⟩ => ⟨S32000000, .i1⟩
  | .hbm, ⟨48, _⟩ => ⟨S_, .i32⟩
  | .hbm, ⟨49, _⟩ => ⟨S32000000, .i32⟩
  | .hbm, ⟨50, _⟩ => ⟨S32000000, .i32⟩
  | .hbm, ⟨51, _⟩ => ⟨S32000000, .i32⟩
  | .hbm, ⟨52, _⟩ => ⟨S32000000x1, .i32⟩
  | .hbm, ⟨53, _⟩ => ⟨S32000000x1, .f32⟩
  | .hbm, ⟨54, _⟩ => ⟨S_, .f32⟩
  | .hbm, ⟨55, _⟩ => ⟨S1000000x1, .f32⟩
  | .hbm, ⟨56, _⟩ => ⟨S32000000x1, .i32⟩
  | .hbm, ⟨57, _⟩ => ⟨S1000000x1, .f32⟩
  | .hbm, ⟨58, _⟩ => ⟨S1x1x1, .f32⟩
  | .hbm, ⟨59, _⟩ => ⟨S1x1, .f32⟩
  | .hbm, ⟨60, _⟩ => ⟨S1000000x1, .f32⟩
  | .hbm, ⟨61, _⟩ => ⟨S1x1x1, .f32⟩
  | .hbm, ⟨62, _⟩ => ⟨S1x1, .f32⟩
  | .hbm, ⟨63, _⟩ => ⟨S1000000x1, .f32⟩
  | .hbm, ⟨64, _⟩ => ⟨S1000000x1, .f32⟩
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_4 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]

class Facts₀ : Prop where
  bcast_S_S32000000 : S_.BroadcastsInDim S32000000 (![] : Fin 0 → Fin S32000000.rank)
  bcast_S32000000_S32000000x1_0 : S32000000.BroadcastsInDim S32000000x1 (![0] : Fin 1 → Fin S32000000x1.rank)
  bcast_S_S1000000x1 : S_.BroadcastsInDim S1000000x1 (![] : Fin 0 → Fin S1000000x1.rank)
  slices_S3x1x1_S1x1x1_0_0_0 : S3x1x1.Slices ![0, 0, 0] S1x1x1
  shapeCasts_S1x1x1_S1x1 : S1x1x1.ShapeCasts S1x1
  slices_S3x1x1_S1x1x1_1_0_0 : S3x1x1.Slices ![1, 0, 0] S1x1x1
  slices_S3x1x1_S1x1x1_2_0_0 : S3x1x1.Slices ![2, 0, 0] S1x1x1
  gather_S1000000x1_S32000000x1_S32000000x1_1_0_n_n_0_1_11_wf : GatherDims.WF S1000000x1 S32000000x1 S32000000x1 [1] [0] [] [0] [] 1 ![1, 1]
  scatter_S1000000x1_S32000000x1_S32000000x1_1_0_0_1_wf : ScatterDims.WF S1000000x1 S32000000x1 S32000000x1 [1] [0] [0] 1
  dot_S1000000x1_S1x1_S1000000x1_1_0_0_1_n_n_wf : DotDims.WF S1000000x1 S1x1 S1000000x1 [1] [0] [0] [1] [] []

variable [Facts₀]

def gather_S1000000x1_S32000000x1_S32000000x1_1_0_n_n_0_1_11 : GatherDims S1000000x1 S32000000x1 S32000000x1 where
  offsetDims := [1]
  collapsedSliceDims := [0]
  operandBatchingDims := []
  startIndicesBatchingDims := []
  startIndexMap := [0]
  indexVectorDim := 1
  sliceSizes := ![1, 1]
  wf := gather_S1000000x1_S32000000x1_S32000000x1_1_0_n_n_0_1_11_wf
def scatter_S1000000x1_S32000000x1_S32000000x1_1_0_0_1 : ScatterDims S1000000x1 S32000000x1 S32000000x1 where
  updateWindowDims := [1]
  insertedWindowDims := [0]
  scatterDimsToOperandDims := [0]
  indexVectorDim := 1
  wf := scatter_S1000000x1_S32000000x1_S32000000x1_1_0_0_1_wf
def dot_S1000000x1_S1x1_S1000000x1_1_0_0_1_n_n : DotDims S1000000x1 S1x1 S1000000x1 where
  lhsContracting := [1]
  rhsContracting := [0]
  lhsNonContracting := [0]
  rhsNonContracting := [1]
  lhsBatch := []
  rhsBatch := []
  wf := dot_S1000000x1_S1x1_S1000000x1_1_0_0_1_n_n_wf

class Facts : Prop extends Facts₀ where

variable [Facts]
-- ==== Proof.ResultRun.lean ====
/-
  The idealized kernel program's run, with its result array read at the end.

  The program is three launches of the per-layer combine among three stretches of host operations: six segments. The
  buffer contents at the segment boundaries are a fold from the launch memory, `Gen.W0` … `Gen.W6`: a host stretch
  rewrites the buffers its operations write, a launch rewrites its output array to what its tiles' write-backs leave.
  Every weakly fair execution runs the six segments in order, terminates without a fault, and ends with every unscoped
  buffer at the last boundary's contents `Gen.W6`. Read at the result's reference this names the result array; read at
  the five arguments, which no segment writes, it gives back the launch contents.
-/
import proofs.«162763_j78907139162590_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents and the
    five arguments end as launched. -/
theorem run : θ_run defs (onTc (τ := τ) (main (F := F))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Result

end
-- ==== Proof.Hop.lean ====
/-
  One layer of the stacked neighbourhood-sum convolution, as a function of arrays.

  A layer maps the node features `h` (one number per node) and the aggregated neighbour features `n` (for every node the
  sum of `h` over the sources of its incoming edges) to `h · w_self + n · w_neigh`, where both weights are 1×1 matrices:
  every node's new feature is its own feature times the single entry of `w_self` plus its neighbour sum times the single
  entry of `w_neigh`. Stated for any index shape, so that the same function speaks of a tile of nodes and of all nodes.
-/
import Idealize.ShloMosaic.PureOps.Ideal
import Idealize.ShloMosaic.Lib.ValueIdx

noncomputable section

namespace Cert.Sage

open Idealize.ShloMosaic Idealize.ShloMosaic.ValueIdx

variable {F : FTy → Type} [FloatOps F]

/-- The index shape of a 1×1 weight matrix. -/
abbrev One : Shape := ⟨2, ![1, 1]⟩

/-- The only index of a 1×1 matrix. -/
abbrev w00 : One.Idx := ix2 (0 : Fin 1) (0 : Fin 1)

/-- One layer: `h i · w_self + n i · w_neigh` at every index `i`. -/
def hop {s : Shape} (h n : FVec F s .f32) (ws wn : FVec F One .f32) : FVec F s .f32 :=
  fun i => FloatOps.addf (FloatOps.mulf (h i) (ws w00)) (FloatOps.mulf (n i) (wn w00))

theorem hop_apply {s : Shape} (h n : FVec F s .f32) (ws wn : FVec F One .f32) (i : s.Idx) :
    hop h n ws wn i = FloatOps.addf (FloatOps.mulf (h i) (ws w00)) (FloatOps.mulf (n i) (wn w00)) := rfl

end Cert.Sage

end
-- ==== Proof.Chain.lean ====
/-
  The whole computation as one function of the five arguments: three layers of the neighbourhood-sum convolution.

  Layer by layer: the edge sources are made non-negative by wrapping negative entries by the node count (`wrapSrc`); the
  neighbour sums `neigh h src dst` gather the features `h` at the wrapped sources and add each gathered row into the row its
  destination names, starting from zero; the layer's two 1×1 weights are slices of the stacked weights (`weight0`, `weight1`,
  `weight2`); and the layer turns `h` into `Sage.hop h (neigh h src dst) w_self w_neigh`. Three layers in a row are `layers`.
  The gather and the scatter-add stay unopened: both programs apply the same two operations to equal operands.
-/
import proofs.«162763_j78907139162590_1_alg».proof.Proof.Gen.KernelIdeal
import proofs.«162763_j78907139162590_1_alg».proof.Proof.Hop

noncomputable section

namespace Cert.KernelIdeal.Chain

open Cert.KernelIdeal Cert.KernelIdeal.Gen Cert.Sage
open Idealize.ShloMosaic

variable {F : FTy → Type} [FloatOps F]

/-- The edge sources with every negative entry wrapped by the node count. -/
def wrapSrc (src : (⟨S32000000, .i32⟩ : BufTy).Contents (Elt F)) : (⟨S32000000, .i32⟩ : BufTy).Contents (Elt F) :=
  select (cmpi .slt src (broadcastInDim S32000000 ![] bcast_S_S32000000 (constantI S_ 32 0#32)))
    (addi src (broadcastInDim S32000000 ![] bcast_S_S32000000 (constantI S_ 32 1000000#32))) src

/-- The neighbour sums: `h` gathered at the wrapped sources, each gathered row added into its destination's row, from zero. -/
def neigh (h : (⟨S1000000x1, .f32⟩ : BufTy).Contents (Elt F)) (src dst : (⟨S32000000, .i32⟩ : BufTy).Contents (Elt F)) :
    (⟨S1000000x1, .f32⟩ : BufTy).Contents (Elt F) :=
  Host.scatterAdd scatter_S1000000x1_S32000000x1_S32000000x1_1_0_0_1
    (broadcastInDim S1000000x1 ![] bcast_S_S1000000x1 (constant S_ .f32 0x00000000#32))
    (broadcastInDim S32000000x1 ![0] bcast_S32000000_S32000000x1_0 dst)
    (Host.gather gather_S1000000x1_S32000000x1_S32000000x1_1_0_n_n_0_1_11 h
      (broadcastInDim S32000000x1 ![0] bcast_S32000000_S32000000x1_0 (wrapSrc (F := F) src)))

/-- Layer 0's 1×1 weight out of the stacked weights. -/
def weight0 (w : (⟨S3x1x1, .f32⟩ : BufTy).Contents (Elt F)) : (⟨S1x1, .f32⟩ : BufTy).Contents (Elt F) :=
  shapeCast _ (extractStridedSlice S1x1x1 ![0, 0, 0] w slices_S3x1x1_S1x1x1_0_0_0) shapeCasts_S1x1x1_S1x1
/-- Layer 1's 1×1 weight out of the stacked weights. -/
def weight1 (w : (⟨S3x1x1, .f32⟩ : BufTy).Contents (Elt F)) : (⟨S1x1, .f32⟩ : BufTy).Contents (Elt F) :=
  shapeCast _ (extractStridedSlice S1x1x1 ![1, 0, 0] w slices_S3x1x1_S1x1x1_1_0_0) shapeCasts_S1x1x1_S1x1
/-- Layer 2's 1×1 weight out of the stacked weights. -/
def weight2 (w : (⟨S3x1x1, .f32⟩ : BufTy).Contents (Elt F)) : (⟨S1x1, .f32⟩ : BufTy).Contents (Elt F) :=
  shapeCast _ (extractStridedSlice S1x1x1 ![2, 0, 0] w slices_S3x1x1_S1x1x1_2_0_0) shapeCasts_S1x1x1_S1x1

/-- One layer from the node features, the edges and the layer's two weights. -/
def layer (h : (⟨S1000000x1, .f32⟩ : BufTy).Contents (Elt F)) (src dst : (⟨S32000000, .i32⟩ : BufTy).Contents (Elt F))
    (ws wn : (⟨S1x1, .f32⟩ : BufTy).Contents (Elt F)) : (⟨S1000000x1, .f32⟩ : BufTy).Contents (Elt F) :=
  hop h (neigh (F := F) h src dst) ws wn

/-- The three layers in a row. -/
def layers (h : (⟨S1000000x1, .f32⟩ : BufTy).Contents (Elt F)) (src dst : (⟨S32000000, .i32⟩ : BufTy).Contents (Elt F))
    (wS wN : (⟨S3x1x1, .f32⟩ : BufTy).Contents (Elt F)) : (⟨S1000000x1, .f32⟩ : BufTy).Contents (Elt F) :=
  layer (F := F) (layer (F := F) (layer (F := F) h src dst (weight0 wS) (weight0 wN)) src dst (weight1 wS) (weight1 wN)) src dst
    (weight2 wS) (weight2 wN)

end Cert.KernelIdeal.Chain

end
-- ==== Proof.Layer0.lean ====
/-
  Launch 0 of the per-layer combine, read as a function of arrays.

  The launch walks 125 tiles of 8000 nodes. At tile `t` the body loads rows `8000·t … 8000·t + 7999` of the feature array and
  of the neighbour-sum array and the two 1×1 weights (the same block at every tile), and stores `h · w_self + n · w_neigh` for
  those rows. The tiles cover all 1 000 000 rows, so after the launch the output array is `Sage.hop` of the four input arrays as
  the launch found them — whatever those contents are.
-/
import proofs.«162763_j78907139162590_1_alg».proof.Proof.Gen.KernelIdeal.Frame
import proofs.«162763_j78907139162590_1_alg».proof.Proof.Hop
import Idealize.ShloMosaic.Lib.Pipeline.Value
import Idealize.ShloMosaic.Lib.ValueLayout

set_option maxRecDepth 16384

noncomputable section

namespace Cert.KernelIdeal.Layer0

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The body's arithmetic on one tile is one layer on that tile: the casts to the same shape are the identity and each 1×1
    weight, spread over the tile's rows, reads its single entry. -/
theorem pay_eq (w0 w1 : Vec F S1x1 .f32) (x0 x1 : Vec F S8000x1 .f32) :
    k0_pay1 w0 w1 x0 x1 = hop x0 x1 w0 w1 := by
  funext j
  obtain ⟨p, q, rfl⟩ : ∃ (p : Fin 8000) (q : Fin 1), j = ix2 p q := ⟨j 0, j 1, eq_ix2 j⟩
  obtain rfl : q = 0 := Subsingleton.elim _ _
  unfold k0_pay1
  simp only [shapeCast_self, hop_apply]
  show FloatOps.addf (FloatOps.mulf (x0 (ix2 p 0)) (broadcastTo S8000x1 w0 broadcasts_S1x1_S8000x1 (ix2 p 0)))
      (FloatOps.mulf (x1 (ix2 p 0)) (broadcastTo S8000x1 w1 broadcasts_S1x1_S8000x1 (ix2 p 0))) = _
  rw [broadcastTo_1b_ab_apply, broadcastTo_1b_ab_apply]

/-- The printed index maps over the 125 tiles: the two node arrays and the output move with the tile, the weights stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT TILE `t` WRITES BACK is tile `t` of one layer of the four input arrays as the launch finds them. -/
theorem flushed_eq (c : Dev nD) (t : Fin cfg0.N) :
    (dat0 V c).flushed 4 t = ((cfg0.win 4).blk t).view.read (Elt F)
      (hop (V c main_arg0) (V c main_v9) (V c main_v11) (V c main_v13)) := by
  show (cfg0.win 4).cut (grid0.coords t) ((dat0 V c).after 4 t) = _
  rw [after0_4]
  unfold out0_4
  rw [View.canon_unit_zero hz]
  simp only [View.ld_unit_zero (S := S8000x1) hz, View.ld_unit_zero (S := S1x1) hz]
  rw [pay_eq]
  obtain ⟨e00, e01, e10, e11, e20, e21, e30, e31, e40, e41⟩ := idx_facts t
  funext j
  show FloatOps.addf (FloatOps.mulf (V c main_arg0 (((cfg0.win 0).blk t).view.emb j)) (V c main_v11 (((cfg0.win 2).blk t).view.emb w00)))
      (FloatOps.mulf (V c main_v9 (((cfg0.win 1).blk t).view.emb j)) (V c main_v13 (((cfg0.win 3).blk t).view.emb w00)))
    = FloatOps.addf (FloatOps.mulf (V c main_arg0 (((cfg0.win 4).blk t).view.emb j)) (V c main_v11 w00))
      (FloatOps.mulf (V c main_v9 (((cfg0.win 4).blk t).view.emb j)) (V c main_v13 w00))
  have h0 : ((cfg0.win 0).blk t).view.emb j = ((cfg0.win 4).blk t).view.emb j := by
    funext a; apply Fin.ext
    match a with
    | ⟨0, _⟩ => show win0_0.index t (0 : Fin 2) * 8000 + 1 * (j 0).val = win0_4.index t (0 : Fin 2) * 8000 + 1 * (j 0).val; omega
    | ⟨1, _⟩ => show win0_0.index t (1 : Fin 2) * 1 + 1 * (j 1).val = win0_4.index t (1 : Fin 2) * 1 + 1 * (j 1).val; omega
  have h1 : ((cfg0.win 1).blk t).view.emb j = ((cfg0.win 4).blk t).view.emb j := by
    funext a; apply Fin.ext
    match a with
    | ⟨0, _⟩ => show win0_1.index t (0 : Fin 2) * 8000 + 1 * (j 0).val = win0_4.index t (0 : Fin 2) * 8000 + 1 * (j 0).val; omega
    | ⟨1, _⟩ => show win0_1.index t (1 : Fin 2) * 1 + 1 * (j 1).val = win0_4.index t (1 : Fin 2) * 1 + 1 * (j 1).val; omega
  have h2 : ((cfg0.win 2).blk t).view.emb w00 = w00 := by
    funext a; apply Fin.ext
    match a with
    | ⟨0, _⟩ => show win0_2.index t (0 : Fin 2) * 1 + 1 * 0 = 0; omega
    | ⟨1, _⟩ => show win0_2.index t (1 : Fin 2) * 1 + 1 * 0 = 0; omega
  have h3 : ((cfg0.win 3).blk t).view.emb w00 = w00 := by
    funext a; apply Fin.ext
    match a with
    | ⟨0, _⟩ => show win0_3.index t (0 : Fin 2) * 1 + 1 * 0 = 0; omega
    | ⟨1, _⟩ => show win0_3.index t (1 : Fin 2) * 1 + 1 * 0 = 0; omega
  rw [h0, h1, h2, h3]

/-- A row of the output array is in tile `t` iff each coordinate is in the tile's range on its axis. -/
theorem mem_blk (t : Fin cfg0.N) (i : S1000000x1.Idx) :
    i ∈ ((cfg0.win 4).blk t).view.set ↔ ∀ a : Fin 2, win0_4.index t a * S8000x1.size a ≤ (i a).val ∧ (i a).val < win0_4.index t a * S8000x1.size a + S8000x1.size a := by
  show i ∈ ((View.whole main_v14).slice (win0_4.rect t)).set ↔ _
  rw [View.set_slice_whole, Rect.mem_set_unit]
  exact Iff.rfl

/-- Every row is in some tile: row `r` is in tile `r / 8000`. -/
theorem cover (i : S1000000x1.Idx) :
    ∃ t : Fin cfg0.N, (cfg0.win 4).flush t = true ∧ i ∈ ((cfg0.win 4).blk t).view.set := by
  have hN : cfg0.N = 125 := N_0
  have hi0 : (i 0).val < 1000000 := (i 0).isLt
  have hi1 : (i 1).val < 1 := (i 1).isLt
  refine ⟨⟨(i 0).val / 8000, by rw [hN]; omega⟩, flush0_4 _, ?_⟩
  rw [mem_blk]
  obtain ⟨-, -, -, -, -, -, -, -, e40, e41⟩ := idx_facts ⟨(i 0).val / 8000, by rw [hN]; omega⟩
  intro a
  match a with
  | ⟨0, _⟩ =>
    show win0_4.index _ (0 : Fin 2) * 8000 ≤ (i 0).val ∧ (i 0).val < win0_4.index _ (0 : Fin 2) * 8000 + 8000
    rw [e40]; show (i 0).val / 8000 * 8000 ≤ (i 0).val ∧ (i 0).val < (i 0).val / 8000 * 8000 + 8000; omega
  | ⟨1, _⟩ =>
    show win0_4.index _ (1 : Fin 2) * 1 ≤ (i 1).val ∧ (i 1).val < win0_4.index _ (1 : Fin 2) * 1 + 1
    rw [e41]; omega

/-- THE OUTPUT ARRAY after the launch is one layer of the four input arrays as the launch found them. -/
theorem final (c : Dev nD) :
    (dat0 V c).arrAt 4 cfg0.N = hop (V c main_arg0) (V c main_v9) (V c main_v11) (V c main_v13) :=
  (dat0 V c).arrAt_eq_of_cover 4 _ (fun t _ => flushed_eq V c t) cover

end Cert.KernelIdeal.Layer0

end
-- ==== Proof.Layer1.lean ====
/-
  Launch 1 of the per-layer combine, read as a function of arrays.

  The launch walks 125 tiles of 8000 nodes. At tile `t` the body loads rows `8000·t … 8000·t + 7999` of the feature array and
  of the neighbour-sum array and the two 1×1 weights (the same block at every tile), and stores `h · w_self + n · w_neigh` for
  those rows. The tiles cover all 1 000 000 rows, so after the launch the output array is `Sage.hop` of the four input arrays as
  the launch found them — whatever those contents are.
-/
import proofs.«162763_j78907139162590_1_alg».proof.Proof.Gen.KernelIdeal.Frame
import proofs.«162763_j78907139162590_1_alg».proof.Proof.Hop
import Idealize.ShloMosaic.Lib.Pipeline.Value
import Idealize.ShloMosaic.Lib.ValueLayout

set_option maxRecDepth 16384

noncomputable section

namespace Cert.KernelIdeal.Layer1

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The body's arithmetic on one tile is one layer on that tile: the casts to the same shape are the identity and each 1×1
    weight, spread over the tile's rows, reads its single entry. -/
theorem pay_eq (w0 w1 : Vec F S1x1 .f32) (x0 x1 : Vec F S8000x1 .f32) :
    k1_pay1 w0 w1 x0 x1 = hop x0 x1 w0 w1 := by
  funext j
  obtain ⟨p, q, rfl⟩ : ∃ (p : Fin 8000) (q : Fin 1), j = ix2 p q := ⟨j 0, j 1, eq_ix2 j⟩
  obtain rfl : q = 0 := Subsingleton.elim _ _
  unfold k1_pay1
  simp only [shapeCast_self, hop_apply]
  show FloatOps.addf (FloatOps.mulf (x0 (ix2 p 0)) (broadcastTo S8000x1 w0 broadcasts_S1x1_S8000x1 (ix2 p 0)))
      (FloatOps.mulf (x1 (ix2 p 0)) (broadcastTo S8000x1 w1 broadcasts_S1x1_S8000x1 (ix2 p 0))) = _
  rw [broadcastTo_1b_ab_apply, broadcastTo_1b_ab_apply]

/-- The printed index maps over the 125 tiles: the two node arrays and the output move with the tile, the weights stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT TILE `t` WRITES BACK is tile `t` of one layer of the four input arrays as the launch finds them. -/
theorem flushed_eq (c : Dev nD) (t : Fin cfg1.N) :
    (dat1 V c).flushed 4 t = ((cfg1.win 4).blk t).view.read (Elt F)
      (hop (V c main_v14) (V c main_v24) (V c main_v26) (V c main_v28)) := by
  show (cfg1.win 4).cut (grid1.coords t) ((dat1 V c).after 4 t) = _
  rw [after1_4]
  unfold out1_4
  rw [View.canon_unit_zero hz]
  simp only [View.ld_unit_zero (S := S8000x1) hz, View.ld_unit_zero (S := S1x1) hz]
  rw [pay_eq]
  obtain ⟨e00, e01, e10, e11, e20, e21, e30, e31, e40, e41⟩ := idx_facts t
  funext j
  show FloatOps.addf (FloatOps.mulf (V c main_v14 (((cfg1.win 0).blk t).view.emb j)) (V c main_v26 (((cfg1.win 2).blk t).view.emb w00)))
      (FloatOps.mulf (V c main_v24 (((cfg1.win 1).blk t).view.emb j)) (V c main_v28 (((cfg1.win 3).blk t).view.emb w00)))
    = FloatOps.addf (FloatOps.mulf (V c main_v14 (((cfg1.win 4).blk t).view.emb j)) (V c main_v26 w00))
      (FloatOps.mulf (V c main_v24 (((cfg1.win 4).blk t).view.emb j)) (V c main_v28 w00))
  have h0 : ((cfg1.win 0).blk t).view.emb j = ((cfg1.win 4).blk t).view.emb j := by
    funext a; apply Fin.ext
    match a with
    | ⟨0, _⟩ => show win1_0.index t (0 : Fin 2) * 8000 + 1 * (j 0).val = win1_4.index t (0 : Fin 2) * 8000 + 1 * (j 0).val; omega
    | ⟨1, _⟩ => show win1_0.index t (1 : Fin 2) * 1 + 1 * (j 1).val = win1_4.index t (1 : Fin 2) * 1 + 1 * (j 1).val; omega
  have h1 : ((cfg1.win 1).blk t).view.emb j = ((cfg1.win 4).blk t).view.emb j := by
    funext a; apply Fin.ext
    match a with
    | ⟨0, _⟩ => show win1_1.index t (0 : Fin 2) * 8000 + 1 * (j 0).val = win1_4.index t (0 : Fin 2) * 8000 + 1 * (j 0).val; omega
    | ⟨1, _⟩ => show win1_1.index t (1 : Fin 2) * 1 + 1 * (j 1).val = win1_4.index t (1 : Fin 2) * 1 + 1 * (j 1).val; omega
  have h2 : ((cfg1.win 2).blk t).view.emb w00 = w00 := by
    funext a; apply Fin.ext
    match a with
    | ⟨0, _⟩ => show win1_2.index t (0 : Fin 2) * 1 + 1 * 0 = 0; omega
    | ⟨1, _⟩ => show win1_2.index t (1 : Fin 2) * 1 + 1 * 0 = 0; omega
  have h3 : ((cfg1.win 3).blk t).view.emb w00 = w00 := by
    funext a; apply Fin.ext
    match a with
    | ⟨0, _⟩ => show win1_3.index t (0 : Fin 2) * 1 + 1 * 0 = 0; omega
    | ⟨1, _⟩ => show win1_3.index t (1 : Fin 2) * 1 + 1 * 0 = 0; omega
  rw [h0, h1, h2, h3]

/-- A row of the output array is in tile `t` iff each coordinate is in the tile's range on its axis. -/
theorem mem_blk (t : Fin cfg1.N) (i : S1000000x1.Idx) :
    i ∈ ((cfg1.win 4).blk t).view.set ↔ ∀ a : Fin 2, win1_4.index t a * S8000x1.size a ≤ (i a).val ∧ (i a).val < win1_4.index t a * S8000x1.size a + S8000x1.size a := by
  show i ∈ ((View.whole main_v29).slice (win1_4.rect t)).set ↔ _
  rw [View.set_slice_whole, Rect.mem_set_unit]
  exact Iff.rfl

/-- Every row is in some tile: row `r` is in tile `r / 8000`. -/
theorem cover (i : S1000000x1.Idx) :
    ∃ t : Fin cfg1.N, (cfg1.win 4).flush t = true ∧ i ∈ ((cfg1.win 4).blk t).view.set := by
  have hN : cfg1.N = 125 := N_1
  have hi0 : (i 0).val < 1000000 := (i 0).isLt
  have hi1 : (i 1).val < 1 := (i 1).isLt
  refine ⟨⟨(i 0).val / 8000, by rw [hN]; omega⟩, flush1_4 _, ?_⟩
  rw [mem_blk]
  obtain ⟨-, -, -, -, -, -, -, -, e40, e41⟩ := idx_facts ⟨(i 0).val / 8000, by rw [hN]; omega⟩
  intro a
  match a with
  | ⟨0, _⟩ =>
    show win1_4.index _ (0 : Fin 2) * 8000 ≤ (i 0).val ∧ (i 0).val < win1_4.index _ (0 : Fin 2) * 8000 + 8000
    rw [e40]; show (i 0).val / 8000 * 8000 ≤ (i 0).val ∧ (i 0).val < (i 0).val / 8000 * 8000 + 8000; omega
  | ⟨1, _⟩ =>
    show win1_4.index _ (1 : Fin 2) * 1 ≤ (i 1).val ∧ (i 1).val < win1_4.index _ (1 : Fin 2) * 1 + 1
    rw [e41]; omega

/-- THE OUTPUT ARRAY after the launch is one layer of the four input arrays as the launch found them. -/
theorem final (c : Dev nD) :
    (dat1 V c).arrAt 4 cfg1.N = hop (V c main_v14) (V c main_v24) (V c main_v26) (V c main_v28) :=
  (dat1 V c).arrAt_eq_of_cover 4 _ (fun t _ => flushed_eq V c t) cover

end Cert.KernelIdeal.Layer1

end
-- ==== Proof.Layer2.lean ====
/-
  Launch 2 of the per-layer combine, read as a function of arrays.

  The launch walks 125 tiles of 8000 nodes. At tile `t` the body loads rows `8000·t … 8000·t + 7999` of the feature array and
  of the neighbour-sum array and the two 1×1 weights (the same block at every tile), and stores `h · w_self + n · w_neigh` for
  those rows. The tiles cover all 1 000 000 rows, so after the launch the output array is `Sage.hop` of the four input arrays as
  the launch found them — whatever those contents are.
-/
import proofs.«162763_j78907139162590_1_alg».proof.Proof.Gen.KernelIdeal.Frame
import proofs.«162763_j78907139162590_1_alg».proof.Proof.Hop
import Idealize.ShloMosaic.Lib.Pipeline.Value
import Idealize.ShloMosaic.Lib.ValueLayout

set_option maxRecDepth 16384

noncomputable section

namespace Cert.KernelIdeal.Layer2

open Cert.KernelIdeal Cert.KernelIdeal.Gen Cert.Sage
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The body's arithmetic on one tile is one layer on that tile: the casts to the same shape are the identity and each 1×1
    weight, spread over the tile's rows, reads its single entry. -/
theorem pay_eq (w0 w1 : Vec F S1x1 .f32) (x0 x1 : Vec F S8000x1 .f32) :
    k2_pay1 w0 w1 x0 x1 = hop x0 x1 w0 w1 := by
  funext j
  obtain ⟨p, q, rfl⟩ : ∃ (p : Fin 8000) (q : Fin 1), j = ix2 p q := ⟨j 0, j 1, eq_ix2 j⟩
  obtain rfl : q = 0 := Subsingleton.elim _ _
  unfold k2_pay1
  simp only [shapeCast_self, hop_apply]
  show FloatOps.addf (FloatOps.mulf (x0 (ix2 p 0)) (broadcastTo S8000x1 w0 broadcasts_S1x1_S8000x1 (ix2 p 0)))
      (FloatOps.mulf (x1 (ix2 p 0)) (broadcastTo S8000x1 w1 broadcasts_S1x1_S8000x1 (ix2 p 0))) = _
  rw [broadcastTo_1b_ab_apply, broadcastTo_1b_ab_apply]

/-- The printed index maps over the 125 tiles: the two node arrays and the output move with the tile, the weights stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- WHAT TILE `t` WRITES BACK is tile `t` of one layer of the four input arrays as the launch finds them. -/
theorem flushed_eq (c : Dev nD) (t : Fin cfg2.N) :
    (dat2 V c).flushed 4 t = ((cfg2.win 4).blk t).view.read (Elt F)
      (hop (V c main_v29) (V c main_v39) (V c main_v41) (V c main_v43)) := by
  show (cfg2.win 4).cut (grid2.coords t) ((dat2 V c).after 4 t) = _
  rw [after2_4]
  unfold out2_4
  rw [View.canon_unit_zero hz]
  simp only [View.ld_unit_zero (S := S8000x1) hz, View.ld_unit_zero (S := S1x1) hz]
  rw [pay_eq]
  obtain ⟨e00, e01, e10, e11, e20, e21, e30, e31, e40, e41⟩ := idx_facts t
  funext j
  show FloatOps.addf (FloatOps.mulf (V c main_v29 (((cfg2.win 0).blk t).view.emb j)) (V c main_v41 (((cfg2.win 2).blk t).view.emb w00)))
      (FloatOps.mulf (V c main_v39 (((cfg2.win 1).blk t).view.emb j)) (V c main_v43 (((cfg2.win 3).blk t).view.emb w00)))
    = FloatOps.addf (FloatOps.mulf (V c main_v29 (((cfg2.win 4).blk t).view.emb j)) (V c main_v41 w00))
      (FloatOps.mulf (V c main_v39 (((cfg2.win 4).blk t).view.emb j)) (V c main_v43 w00))
  have h0 : ((cfg2.win 0).blk t).view.emb j = ((cfg2.win 4).blk t).view.emb j := by
    funext a; apply Fin.ext
    match a with
    | ⟨0, _⟩ => show win2_0.index t (0 : Fin 2) * 8000 + 1 * (j 0).val = win2_4.index t (0 : Fin 2) * 8000 + 1 * (j 0).val; omega
    | ⟨1, _⟩ => show win2_0.index t (1 : Fin 2) * 1 + 1 * (j 1).val = win2_4.index t (1 : Fin 2) * 1 + 1 * (j 1).val; omega
  have h1 : ((cfg2.win 1).blk t).view.emb j = ((cfg2.win 4).blk t).view.emb j := by
    funext a; apply Fin.ext
    match a with
    | ⟨0, _⟩ => show win2_1.index t (0 : Fin 2) * 8000 + 1 * (j 0).val = win2_4.index t (0 : Fin 2) * 8000 + 1 * (j 0).val; omega
    | ⟨1, _⟩ => show win2_1.index t (1 : Fin 2) * 1 + 1 * (j 1).val = win2_4.index t (1 : Fin 2) * 1 + 1 * (j 1).val; omega
  have h2 : ((cfg2.win 2).blk t).view.emb w00 = w00 := by
    funext a; apply Fin.ext
    match a with
    | ⟨0, _⟩ => show win2_2.index t (0 : Fin 2) * 1 + 1 * 0 = 0; omega
    | ⟨1, _⟩ => show win2_2.index t (1 : Fin 2) * 1 + 1 * 0 = 0; omega
  have h3 : ((cfg2.win 3).blk t).view.emb w00 = w00 := by
    funext a; apply Fin.ext
    match a with
    | ⟨0, _⟩ => show win2_3.index t (0 : Fin 2) * 1 + 1 * 0 = 0; omega
    | ⟨1, _⟩ => show win2_3.index t (1 : Fin 2) * 1 + 1 * 0 = 0; omega
  rw [h0, h1, h2, h3]

/-- A row of the output array is in tile `t` iff each coordinate is in the tile's range on its axis. -/
theorem mem_blk (t : Fin cfg2.N) (i : S1000000x1.Idx) :
    i ∈ ((cfg2.win 4).blk t).view.set ↔ ∀ a : Fin 2, win2_4.index t a * S8000x1.size a ≤ (i a).val ∧ (i a).val < win2_4.index t a * S8000x1.size a + S8000x1.size a := by
  show i ∈ ((View.whole main_v44).slice (win2_4.rect t)).set ↔ _
  rw [View.set_slice_whole, Rect.mem_set_unit]
  exact Iff.rfl

/-- Every row is in some tile: row `r` is in tile `r / 8000`. -/
theorem cover (i : S1000000x1.Idx) :
    ∃ t : Fin cfg2.N, (cfg2.win 4).flush t = true ∧ i ∈ ((cfg2.win 4).blk t).view.set := by
  have hN : cfg2.N = 125 := N_2
  have hi0 : (i 0).val < 1000000 := (i 0).isLt
  have hi1 : (i 1).val < 1 := (i 1).isLt
  refine ⟨⟨(i 0).val / 8000, by rw [hN]; omega⟩, flush2_4 _, ?_⟩
  rw [mem_blk]
  obtain ⟨-, -, -, -, -, -, -, -, e40, e41⟩ := idx_facts ⟨(i 0).val / 8000, by rw [hN]; omega⟩
  intro a
  match a with
  | ⟨0, _⟩ =>
    show win2_4.index _ (0 : Fin 2) * 8000 ≤ (i 0).val ∧ (i 0).val < win2_4.index _ (0 : Fin 2) * 8000 + 8000
    rw [e40]; show (i 0).val / 8000 * 8000 ≤ (i 0).val ∧ (i 0).val < (i 0).val / 8000 * 8000 + 8000; omega
  | ⟨1, _⟩ =>
    show win2_4.index _ (1 : Fin 2) * 1 ≤ (i 1).val ∧ (i 1).val < win2_4.index _ (1 : Fin 2) * 1 + 1
    rw [e41]; omega

/-- THE OUTPUT ARRAY after the launch is one layer of the four input arrays as the launch found them. -/
theorem final (c : Dev nD) :
    (dat2 V c).arrAt 4 cfg2.N = hop (V c main_v29) (V c main_v39) (V c main_v41) (V c main_v43) :=
  (dat2 V c).arrAt_eq_of_cover 4 _ (fun t _ => flushed_eq V c t) cover

end Cert.KernelIdeal.Layer2

end
-- ==== Proof.Stack.lean ====
/-
  The idealized kernel program's result array as a function of its five arguments: `Chain.layers`.

  The contents of the buffers at the six segment boundaries are followed from the launch memory. A host stretch, from any
  state of the buffers, leaves the neighbour sums of the current features, the layer's two weights, and everything it does
  not write as it was (read operation by operation). A launch of the combine leaves in its output array one layer of its four
  input arrays (`Layer0.final`, `Layer1.final`, `Layer2.final`) and touches no other array. The edge arrays and the stacked
  weights are written by nothing, so every layer reads them as launched.
-/
import proofs.«162763_j78907139162590_1_alg».proof.Proof.Gen.KernelIdeal.Frame
import proofs.«162763_j78907139162590_1_alg».proof.Proof.Chain
import proofs.«162763_j78907139162590_1_alg».proof.Proof.Layer0
import proofs.«162763_j78907139162590_1_alg».proof.Proof.Layer1
import proofs.«162763_j78907139162590_1_alg».proof.Proof.Layer2
import Idealize.ShloMosaic.Lib.StableHlo.Run

set_option maxRecDepth 16384

noncomputable section

namespace Cert.KernelIdeal.Stack

open Cert.KernelIdeal Cert.KernelIdeal.Gen Cert.KernelIdeal.Chain Cert.Sage
open Idealize.ShloMosaic Idealize.ShloMosaic.TcCoe Idealize.SL.Sem Idealize.ShloMosaic.StableHlo

variable {F : FTy → Type} [FloatOps F]

/-! ## The host stretches, from any state of the buffers -/

section Stretches
variable (W : Valuation τ sig (Elt F))

theorem pre0_neigh : after hostOps0 W (Proc.devRef .tc main_v9)
    = neigh (F := F) (W (Proc.devRef .tc main_arg0)) (W (Proc.devRef .tc main_arg1)) (W (Proc.devRef .tc main_arg2)) := by
  after_results; rfl
theorem pre0_wself : after hostOps0 W (Proc.devRef .tc main_v11) = weight0 (F := F) (W (Proc.devRef .tc main_arg3)) := by
  after_results; rfl
theorem pre0_wneigh : after hostOps0 W (Proc.devRef .tc main_v13) = weight0 (F := F) (W (Proc.devRef .tc main_arg4)) := by
  after_results; rfl
theorem pre0_main_arg0 : after hostOps0 W (Proc.devRef .tc main_arg0) = W (Proc.devRef .tc main_arg0) := by after_results
theorem pre0_main_arg1 : after hostOps0 W (Proc.devRef .tc main_arg1) = W (Proc.devRef .tc main_arg1) := by after_results
theorem pre0_main_arg2 : after hostOps0 W (Proc.devRef .tc main_arg2) = W (Proc.devRef .tc main_arg2) := by after_results
theorem pre0_main_arg3 : after hostOps0 W (Proc.devRef .tc main_arg3) = W (Proc.devRef .tc main_arg3) := by after_results
theorem pre0_main_arg4 : after hostOps0 W (Proc.devRef .tc main_arg4) = W (Proc.devRef .tc main_arg4) := by after_results

theorem pre1_neigh : after hostOps1 W (Proc.devRef .tc main_v24)
    = neigh (F := F) (W (Proc.devRef .tc main_v14)) (W (Proc.devRef .tc main_arg1)) (W (Proc.devRef .tc main_arg2)) := by
  after_results; rfl
theorem pre1_wself : after hostOps1 W (Proc.devRef .tc main_v26) = weight1 (F := F) (W (Proc.devRef .tc main_arg3)) := by
  after_results; rfl
theorem pre1_wneigh : after hostOps1 W (Proc.devRef .tc main_v28) = weight1 (F := F) (W (Proc.devRef .tc main_arg4)) := by
  after_results; rfl
theorem pre1_main_v14 : after hostOps1 W (Proc.devRef .tc main_v14) = W (Proc.devRef .tc main_v14) := by after_results
theorem pre1_main_arg1 : after hostOps1 W (Proc.devRef .tc main_arg1) = W (Proc.devRef .tc main_arg1) := by after_results
theorem pre1_main_arg2 : after hostOps1 W (Proc.devRef .tc main_arg2) = W (Proc.devRef .tc main_arg2) := by after_results
theorem pre1_main_arg3 : after hostOps1 W (Proc.devRef .tc main_arg3) = W (Proc.devRef .tc main_arg3) := by after_results
theorem pre1_main_arg4 : after hostOps1 W (Proc.devRef .tc main_arg4) = W (Proc.devRef .tc main_arg4) := by after_results

theorem pre2_neigh : after hostOps2 W (Proc.devRef .tc main_v39)
    = neigh (F := F) (W (Proc.devRef .tc main_v29)) (W (Proc.devRef .tc main_arg1)) (W (Proc.devRef .tc main_arg2)) := by
  after_results; rfl
theorem pre2_wself : after hostOps2 W (Proc.devRef .tc main_v41) = weight2 (F := F) (W (Proc.devRef .tc main_arg3)) := by
  after_results; rfl
theorem pre2_wneigh : after hostOps2 W (Proc.devRef .tc main_v43) = weight2 (F := F) (W (Proc.devRef .tc main_arg4)) := by
  after_results; rfl
theorem pre2_main_v29 : after hostOps2 W (Proc.devRef .tc main_v29) = W (Proc.devRef .tc main_v29) := by after_results

end Stretches

/-! ## The six boundaries -/

variable (m : (ℓ : Loc nD τ sig) → Buf (Elt F) ℓ) (ρ : Dev nD → PrngReg) (c : Dev nD)

/-- The features after layer 0. -/
abbrev h1 : (⟨S1000000x1, .f32⟩ : BufTy).Contents (Elt F) :=
  layer (F := F) (m ((c : Thread nD τ).loc main_arg0)) (m ((c : Thread nD τ).loc main_arg1)) (m ((c : Thread nD τ).loc main_arg2))
    (weight0 (m ((c : Thread nD τ).loc main_arg3))) (weight0 (m ((c : Thread nD τ).loc main_arg4)))
/-- The features after layer 1. -/
abbrev h2 : (⟨S1000000x1, .f32⟩ : BufTy).Contents (Elt F) :=
  layer (F := F) (h1 m c) (m ((c : Thread nD τ).loc main_arg1)) (m ((c : Thread nD τ).loc main_arg2))
    (weight1 (m ((c : Thread nD τ).loc main_arg3))) (weight1 (m ((c : Thread nD τ).loc main_arg4)))

-- entering launch 0
theorem in0_arg0 : V1 m ρ c main_arg0 = m ((c : Thread nD τ).loc main_arg0) := pre0_main_arg0 (W0 m ρ c)
theorem in0_arg1 : W1 m ρ c (Proc.devRef .tc main_arg1) = m ((c : Thread nD τ).loc main_arg1) := pre0_main_arg1 (W0 m ρ c)
theorem in0_arg2 : W1 m ρ c (Proc.devRef .tc main_arg2) = m ((c : Thread nD τ).loc main_arg2) := pre0_main_arg2 (W0 m ρ c)
theorem in0_arg3 : W1 m ρ c (Proc.devRef .tc main_arg3) = m ((c : Thread nD τ).loc main_arg3) := pre0_main_arg3 (W0 m ρ c)
theorem in0_arg4 : W1 m ρ c (Proc.devRef .tc main_arg4) = m ((c : Thread nD τ).loc main_arg4) := pre0_main_arg4 (W0 m ρ c)
theorem in0_neigh : V1 m ρ c main_v9 = neigh (F := F) (m ((c : Thread nD τ).loc main_arg0)) (m ((c : Thread nD τ).loc main_arg1)) (m ((c : Thread nD τ).loc main_arg2)) :=
  pre0_neigh (W0 m ρ c)
theorem in0_wself : V1 m ρ c main_v11 = weight0 (F := F) (m ((c : Thread nD τ).loc main_arg3)) := pre0_wself (W0 m ρ c)
theorem in0_wneigh : V1 m ρ c main_v13 = weight0 (F := F) (m ((c : Thread nD τ).loc main_arg4)) := pre0_wneigh (W0 m ρ c)

-- leaving launch 0
theorem out0_h : W2 m ρ c (Proc.devRef .tc main_v14) = h1 m c :=
  (W2_arr m ρ c 4).trans ((Layer0.final (V1 m ρ) c).trans (by rw [in0_arg0, in0_neigh, in0_wself, in0_wneigh]; rfl))
theorem out0_arg1 : W2 m ρ c (Proc.devRef .tc main_arg1) = m ((c : Thread nD τ).loc main_arg1) := (W2_of_ne m ρ c main_arg1 (by decide)).trans (in0_arg1 m ρ c)
theorem out0_arg2 : W2 m ρ c (Proc.devRef .tc main_arg2) = m ((c : Thread nD τ).loc main_arg2) := (W2_of_ne m ρ c main_arg2 (by decide)).trans (in0_arg2 m ρ c)
theorem out0_arg3 : W2 m ρ c (Proc.devRef .tc main_arg3) = m ((c : Thread nD τ).loc main_arg3) := (W2_of_ne m ρ c main_arg3 (by decide)).trans (in0_arg3 m ρ c)
theorem out0_arg4 : W2 m ρ c (Proc.devRef .tc main_arg4) = m ((c : Thread nD τ).loc main_arg4) := (W2_of_ne m ρ c main_arg4 (by decide)).trans (in0_arg4 m ρ c)

-- entering launch 1
theorem in1_h : V3 m ρ c main_v14 = h1 m c := (pre1_main_v14 (W2 m ρ c)).trans (out0_h m ρ c)
theorem in1_arg1 : W3 m ρ c (Proc.devRef .tc main_arg1) = m ((c : Thread nD τ).loc main_arg1) := (pre1_main_arg1 (W2 m ρ c)).trans (out0_arg1 m ρ c)
theorem in1_arg2 : W3 m ρ c (Proc.devRef .tc main_arg2) = m ((c : Thread nD τ).loc main_arg2) := (pre1_main_arg2 (W2 m ρ c)).trans (out0_arg2 m ρ c)
theorem in1_arg3 : W3 m ρ c (Proc.devRef .tc main_arg3) = m ((c : Thread nD τ).loc main_arg3) := (pre1_main_arg3 (W2 m ρ c)).trans (out0_arg3 m ρ c)
theorem in1_arg4 : W3 m ρ c (Proc.devRef .tc main_arg4) = m ((c : Thread nD τ).loc main_arg4) := (pre1_main_arg4 (W2 m ρ c)).trans (out0_arg4 m ρ c)
theorem in1_neigh : V3 m ρ c main_v24 = neigh (F := F) (h1 m c) (m ((c : Thread nD τ).loc main_arg1)) (m ((c : Thread nD τ).loc main_arg2)) :=
  (pre1_neigh (W2 m ρ c)).trans (by rw [out0_h, out0_arg1, out0_arg2])
theorem in1_wself : V3 m ρ c main_v26 = weight1 (F := F) (m ((c : Thread nD τ).loc main_arg3)) := (pre1_wself (W2 m ρ c)).trans (by rw [out0_arg3])
theorem in1_wneigh : V3 m ρ c main_v28 = weight1 (F := F) (m ((c : Thread nD τ).loc main_arg4)) := (pre1_wneigh (W2 m ρ c)).trans (by rw [out0_arg4])

-- leaving launch 1
theorem out1_h : W4 m ρ c (Proc.devRef .tc main_v29) = h2 m c :=
  (W4_arr m ρ c 4).trans ((Layer1.final (V3 m ρ) c).trans (by rw [in1_h, in1_neigh, in1_wself, in1_wneigh]; rfl))
theorem out1_arg1 : W4 m ρ c (Proc.devRef .tc main_arg1) = m ((c : Thread nD τ).loc main_arg1) := (W4_of_ne m ρ c main_arg1 (by decide)).trans (in1_arg1 m ρ c)
theorem out1_arg2 : W4 m ρ c (Proc.devRef .tc main_arg2) = m ((c : Thread nD τ).loc main_arg2) := (W4_of_ne m ρ c main_arg2 (by decide)).trans (in1_arg2 m ρ c)
theorem out1_arg3 : W4 m ρ c (Proc.devRef .tc main_arg3) = m ((c : Thread nD τ).loc main_arg3) := (W4_of_ne m ρ c main_arg3 (by decide)).trans (in1_arg3 m ρ c)
theorem out1_arg4 : W4 m ρ c (Proc.devRef .tc main_arg4) = m ((c : Thread nD τ).loc main_arg4) := (W4_of_ne m ρ c main_arg4 (by decide)).trans (in1_arg4 m ρ c)

-- entering launch 2
theorem in2_h : V5 m ρ c main_v29 = h2 m c := (pre2_main_v29 (W4 m ρ c)).trans (out1_h m ρ c)
theorem in2_neigh : V5 m ρ c main_v39 = neigh (F := F) (h2 m c) (m ((c : Thread nD τ).loc main_arg1)) (m ((c : Thread nD τ).loc main_arg2)) :=
  (pre2_neigh (W4 m ρ c)).trans (by rw [out1_h, out1_arg1, out1_arg2])
theorem in2_wself : V5 m ρ c main_v41 = weight2 (F := F) (m ((c : Thread nD τ).loc main_arg3)) := (pre2_wself (W4 m ρ c)).trans (by rw [out1_arg3])
theorem in2_wneigh : V5 m ρ c main_v43 = weight2 (F := F) (m ((c : Thread nD τ).loc main_arg4)) := (pre2_wneigh (W4 m ρ c)).trans (by rw [out1_arg4])

/-- THE RESULT ARRAY at the last boundary is the three layers of the arguments as launched. -/
theorem result : W6 m ρ c (Proc.devRef .tc main_v44)
    = layers (F := F) (m ((c : Thread nD τ).loc main_arg0)) (m ((c : Thread nD τ).loc main_arg1)) (m ((c : Thread nD τ).loc main_arg2))
        (m ((c : Thread nD τ).loc main_arg3)) (m ((c : Thread nD τ).loc main_arg4)) :=
  (W6_arr m ρ c 4).trans ((Layer2.final (V5 m ρ) c).trans (by rw [in2_h, in2_neigh, in2_wself, in2_wneigh]; rfl))

end Cert.KernelIdeal.Stack

end
-- ==== Proof.RefStack.lean ====
/-
  The idealized reference's result as the same function of the five arguments: `Chain.layers`.

  The reference computes each layer as `h @ w_self + neigh @ w_neigh`, two matrix products with 1×1 matrices. Over the extended
  reals a product `x @ w` of an n×1 matrix with a 1×1 matrix is, row by row, a sum over the one contracted index: the single
  term `x i · w 0 0`. So each layer of the reference is `Sage.hop` of the same features, neighbour sums and weights, and the
  host chain that produces the neighbour sums and the weights is the kernel program's chain operation for operation.
-/
import proofs.«162763_j78907139162590_1_alg».proof.Proof.Gen.ReferenceIdeal.Read
import proofs.«162763_j78907139162590_1_alg».proof.Proof.Chain
import Idealize.ShloMosaic.PureOps.Ideal.Laws
import Idealize.ShloMosaic.Lib.ValueIdx

set_option maxRecDepth 16384

noncomputable section

namespace Cert.ReferenceIdeal.RefStack

open Cert.ReferenceIdeal Cert.ReferenceIdeal.Gen Cert.Sage
open Idealize.ShloMosaic Idealize.ShloMosaic.TcCoe Idealize.SL.Sem Idealize.ShloMosaic.ValueIdx

/-- A product with a 1×1 matrix scales every row by the matrix's entry: the contraction runs over one index. -/
theorem dot_entry (x : FVec Ideal S1000000x1 .f32) (w : FVec Ideal S1x1 .f32) (i : S1000000x1.Idx) :
    Host.dotGeneral (F := Ideal) dot_S1000000x1_S1x1_S1000000x1_1_0_0_1_n_n none x w i = x i * w w00 := by
  simp only [Host.dotGeneral]
  rw [Ideal.dotGeneral_apply, ← Equiv.sum_comp (contrEquiv1 dot_S1000000x1_S1x1_S1000000x1_1_0_0_1_n_n 1 rfl rfl).symm, Fin.sum_univ_one]
  have hk := contrEquiv1_symm_val dot_S1000000x1_S1x1_S1000000x1_1_0_0_1_n_n 1 rfl rfl (0 : Fin 1)
  have hi1 : (i 1).val < 1 := idx2_lt1 i
  have el : dot_S1000000x1_S1x1_S1000000x1_1_0_0_1_n_n.lhsIdx i ((contrEquiv1 dot_S1000000x1_S1x1_S1000000x1_1_0_0_1_n_n 1 rfl rfl).symm 0) = i := funext fun a => Fin.ext (by
    match a with
    | ⟨0, _⟩ => exact Read.lhs_main_v12_0 _ _
    | ⟨1, _⟩ => exact ((Read.lhs_main_v12_1 _ _).trans hk).trans (by show 0 = (i 1).val; omega))
  have er : dot_S1000000x1_S1x1_S1000000x1_1_0_0_1_n_n.rhsIdx i ((contrEquiv1 dot_S1000000x1_S1x1_S1000000x1_1_0_0_1_n_n 1 rfl rfl).symm 0) = w00 := funext fun a => Fin.ext (by
    match a with
    | ⟨0, _⟩ => exact (Read.rhs_main_v12_0 _ _).trans hk
    | ⟨1, _⟩ => exact (Read.rhs_main_v12_1 _ _).trans (by show (i 1).val = 0; omega))
  rw [el, er]

/-- The reference's layer, two products with 1×1 matrices added, is `Sage.hop`. -/
theorem dot_hop (x n : FVec Ideal S1000000x1 .f32) (ws wn : FVec Ideal S1x1 .f32) :
    addf (Host.dotGeneral (F := Ideal) dot_S1000000x1_S1x1_S1000000x1_1_0_0_1_n_n none x ws) (Host.dotGeneral (F := Ideal) dot_S1000000x1_S1x1_S1000000x1_1_0_0_1_n_n none n wn) = hop x n ws wn := by
  funext i
  show Host.dotGeneral (F := Ideal) dot_S1000000x1_S1x1_S1000000x1_1_0_0_1_n_n none x ws i + Host.dotGeneral (F := Ideal) dot_S1000000x1_S1x1_S1000000x1_1_0_0_1_n_n none n wn i = x i * ws w00 + n i * wn w00
  rw [dot_entry, dot_entry]

/-- THE REFERENCE'S RESULT is the three layers of its arguments. -/
theorem result (m : (ℓ : Loc nD τ sig) → Buf (Elt Ideal) ℓ) (c : Dev nD) :
    Value.res_main_v50 (F := Ideal) m c
    = Cert.KernelIdeal.Chain.layers (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  unfold Value.res_main_v50
  simp only [dot_hop]
  rfl

end Cert.ReferenceIdeal.RefStack

end
-- ==== Proof.lean ====
/-
  Three stacked layers of a neighbourhood-sum graph convolution on 1 000 000 nodes with one feature each and 32 000 000
  edges: per layer, `h ← h · w_self + neigh(h) · w_neigh`, where `neigh(h)` adds, for every edge, the source's feature into the
  destination's row, and both weights are 1×1.

  The kernel program computes the neighbour sums with host operations (wrap the negative sources, gather, scatter-add from
  zero) and the combine with a launch over 125 tiles of 8000 nodes, as elementwise products with the weights' single entries.
  The reference computes the same neighbour sums with the same host operations and the combine as two matrix products with
  the 1×1 weights. Over the extended reals a product with a 1×1 matrix is the product with its single entry (a sum over one
  index), so both programs compute `Chain.layers` of the five arguments: the claim needs commutativity of nothing and the
  finiteness of nothing, only that a one-term sum is its term.

  `Layer0`–`Layer2`: a launch's output array is one layer of its input arrays. `Stack`: the kernel program's result is
  `Chain.layers` of its arguments. `RefStack`: so is the reference's. `ResultRun`: the kernel program's run with the result read.
  The word-level kernel and its idealization print the same operations (the idealization rewrote nothing).
-/
import proofs.«162763_j78907139162590_1_alg».proof.Defs
import proofs.«162763_j78907139162590_1_alg».proof.Proof.Gen.Kernel
import proofs.«162763_j78907139162590_1_alg».proof.Proof.Gen.Kernel.Frame
import proofs.«162763_j78907139162590_1_alg».proof.Proof.Gen.KernelIdeal
import proofs.«162763_j78907139162590_1_alg».proof.Proof.Gen.KernelIdeal.Frame
import proofs.«162763_j78907139162590_1_alg».proof.Proof.Gen.ReferenceIdeal
import proofs.«162763_j78907139162590_1_alg».proof.Proof.Gen.ReferenceIdeal.Run
import proofs.«162763_j78907139162590_1_alg».proof.Proof.Gen.Pre_finite_inputs
import proofs.«162763_j78907139162590_1_alg».proof.Proof.ResultRun
import proofs.«162763_j78907139162590_1_alg».proof.Proof.Stack
import proofs.«162763_j78907139162590_1_alg».proof.Proof.RefStack

noncomputable section

namespace Cert.Proof

open Idealize.ShloMosaic Idealize.SL.Sem

/-- The word-level kernel program runs, faults nowhere and keeps its arguments. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the three layers of those arguments in their result
    arrays: the kernel program by `Stack.result`, the reference by `RefStack.result`. -/
theorem algebraic : Cert.algebraic_KernelIdeal_ReferenceIdeal := by
  intro m ρ m' ρ' _ hagree
  refine ⟨fun c => Cert.KernelIdeal.Chain.layers (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Stack.result m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefStack.result m' c, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
